-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S9216x512 : Shape := ⟨2, ![9216, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S9216x512 : S_.BroadcastsInDim S9216x512 (![] : Fin 0 → Fin S9216x512.rank)
  reducesTo_S9216x512_S_d0_1 : S9216x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S9216x512 1) : IVec S_ 1 :=
  let main_c_5 : IVec S_ 1 := constantI S_ 1 1#1
  let main_v17 : IVec S_ 1 := (fun x v => Host.reduce IntOp.andi x v reducesTo_S9216x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8192x512 .f32) (main_arg1 : FVec F S8192x8192 .f32) (main_arg2 : FVec F S8192x512 .f32) (main_arg3 : FVec F S9216x512 .f32) (main_arg4 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S9216x512 .f32 := Host.absf main_arg3
  let main_cst_4 : FVec F S_ .f32 := constant S_ .f32 0x7F800000#32
  let main_v15 : FVec F S9216x512 .f32 := broadcastInDim S9216x512 ![] bcast_S_S9216x512 main_cst_4
  let main_v16 : IVec S9216x512 1 := cmpf .olt main_v14 main_v15
  fn_part1 (F := F) main_arg4 main_v13 main_v16
-- ==== Kernel.lean ====
abbrev S8192x512 : Shape := ⟨2, ![8192, 512]⟩
abbrev S8192x8192 : Shape := ⟨2, ![8192, 8192]⟩
abbrev S9216x512 : Shape := ⟨2, ![9216, 512]⟩
abbrev S512 : Shape := ⟨1, ![512]⟩
abbrev S512x512 : Shape := ⟨2, ![512, 512]⟩
abbrev S1024x512 : Shape := ⟨2, ![1024, 512]⟩
abbrev S1x512 : Shape := ⟨2, ![1, 512]⟩
abbrev S1024x1024 : Shape := ⟨2, ![1024, 1024]⟩

abbrev nBuf : Space → Nat
  | .hbm => 11
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x512, .f32⟩
  | .hbm, ⟨3, _⟩ => ⟨S9216x512, .f32⟩
  | .hbm, ⟨4, _⟩ => ⟨S512, .f32⟩
  | .hbm, ⟨5, _⟩ => ⟨S512x512, .f32⟩
  | .hbm, ⟨6, _⟩ => ⟨S8192x512, .f32⟩
  | .hbm, ⟨7, _⟩ => ⟨S512x512, .f32⟩
  | .hbm, ⟨8, _⟩ => ⟨S8192x512, .bf16⟩
  | .hbm, ⟨9, _⟩ => ⟨S8192x512, .f32⟩
  | .hbm, ⟨10, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S512x512, .f32⟩
  | .local _ .vmem, ⟨8, _⟩ => ⟨S512, .f32⟩
  | .local _ .vmem, ⟨9, _⟩ => ⟨S1024x512, .bf16⟩
  | .local _ .vmem, ⟨10, _⟩ => ⟨S1024x512, .bf16⟩
  | .local _ .vmem, ⟨11, _⟩ => ⟨S1024x512, .f32⟩
  | .local _ .vmem, ⟨12, _⟩ => ⟨S1024x512, .f32⟩
  | .local _ .vmem, ⟨13, _⟩ => ⟨S1024x1024, .f32⟩
  | .local _ .vmem, ⟨14, _⟩ => ⟨S1024x1024, .f32⟩
  | .local _ .vmem, ⟨15, _⟩ => ⟨S8192x512, .bf16⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S9216x512_S512x512_0_0 : S9216x512.Slices ![0, 0] S512x512
  slices_S9216x512_S8192x512_512_0 : S9216x512.Slices ![512, 0] S8192x512
  slices_S9216x512_S512x512_8704_0 : S9216x512.Slices ![8704, 0] S512x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x1024_S1024x1024_0_0 : ∀ a, (![0, 0] : Fin 2 → Nat) a + S1024x1024.size a ≤ S1024x1024.size a
  h_S1024x1024 : 0 < S1024x1024.numel
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .f32 = 32 ∨ (Rect.block (s := S8192x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x512.size a
  hwx0_6 : ∀ i : grid0.Coords, EltTy.bits .bf16 = 32 ∨ (Rect.block (s := S8192x512) S1024x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S8192x512.size a
  hwx0_7 : ∀ i : grid0.Coords, EltTy.bits .f32 = 32 ∨ (Rect.block (s := S8192x512) S1024x512.size (cc0_transform_7 i) (hinb0_7 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S9216x512 : Shape := ⟨2, ![9216, 512]⟩
abbrev S512 : Shape := ⟨1, ![512]⟩
abbrev S8192x9216 : Shape := ⟨2, ![8192, 9216]⟩
abbrev S1x512 : Shape := ⟨2, ![1, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x512, .f32⟩
  | .hbm, ⟨3, _⟩ => ⟨S9216x512, .f32⟩
  | .hbm, ⟨4, _⟩ => ⟨S512, .f32⟩
  | .hbm, ⟨5, _⟩ => ⟨S8192x512, .f32⟩
  | .hbm, ⟨6, _⟩ => ⟨S8192x9216, .f32⟩
  | .hbm, ⟨7, _⟩ => ⟨S8192x512, .f32⟩
  | .hbm, ⟨8, _⟩ => ⟨S1x512, .f32⟩
  | .hbm, ⟨9, _⟩ => ⟨S8192x512, .f32⟩
  | .hbm, ⟨10, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  concatenates_S8192x512_S8192x8192_S8192x512_S8192x9216_d1 : Shape.Concatenates [S8192x512, S8192x8192, S8192x512] S8192x9216 1
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x8192_S8192x512_S8192x512_1_0_0_1_n_n_wf : DotDims.WF S8192x8192 S8192x512 S8192x512 [1] [0] [0] [1] [] []
  dot_S8192x9216_S9216x512_S8192x512_1_0_0_1_n_n_wf : DotDims.WF S8192x9216 S9216x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x9216_S9216x512_S8192x512_1_0_0_1_n_n : DotDims S8192x9216 S9216x512 S8192x512 where
  lhsContracting := [1]
  rhsContracting := [0]
  lhsNonContracting := [0]
  rhsNonContracting := [1]
  lhsBatch := []
  rhsBatch := []
  wf := dot_S8192x9216_S9216x512_S8192x512_1_0_0_1_n_n_wf

class Facts : Prop extends Facts₀ where

variable [Facts]
-- ==== Proof.KernelRun.lean ====
/-
  The idealized kernel's run with every unscoped buffer named.

  @main is a stretch of host operations (three slices of the weight matrix) followed by two kernel regions. The
  buffer contents at the three boundaries are a fold from the launch memory: after the slices, after the first
  region's write-backs, after the second region's. Every weakly fair execution terminates without a fault, and in the
  final state every unscoped buffer of the TensorCore holds the last boundary's contents. In particular the result
  buffer holds what the second region's write-backs leave in its array, and the first region's two outputs are what
  the second region finds in its second and third windows.
-/
import proofs.«160982_j33655363732151_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer at the contents of
    the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The run read at the result and at the arguments: the result buffer at what the second region leaves in its
    output array, the five arguments as launched. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.RunValue

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.EntriesA.lean ====
/-
  The first kernel's two stored values, entry by entry.

  On a block of 1024 rows the body stores C = a · w₁ + w₂ (the row block of the first feature matrix times the
  512 × 512 weight slice, plus the row block of the second slice) and D = x · w₃ + b (the row block of the third
  feature matrix times the last weight slice, plus the bias spread over the rows). Over the extended reals a change
  of float format is the identity and a product into the zero accumulator is the plain sum over the shared
  coordinate, so entry (p, q) of the first is ∑ₖ a(p,k) · w₁(k,q) + w₂(p,q), and of the second
  ∑ₖ x(p,k) · w₃(k,q) + b(q).
-/
import proofs.«160982_j33655363732151_2_alg».proof.Proof.Gen.KernelIdeal.Skeleton
import proofs.«160982_j33655363732151_2_alg».proof.Proof.LibContract
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entries

open Cert.KernelIdeal Cert.KernelIdeal.Gen
open Idealize.ShloMosaic Idealize.ShloMosaic.ValueIdx
open scoped BigOperators

/-- A product of a 1024 × 512 block with a 512 × 512 matrix into the zero accumulator, at entry (p, q): the sum over
    the shared coordinate. -/
theorem matmul_rows_apply (l : FVec Ideal S1024x512 .bf16) (r : FVec Ideal S512x512 .bf16) (p : Fin 1024) (q : Fin 512) :
    matmul dot_S1024x512_S512x512_S1024x512_1_0_0_1_n_n none l r (constant S1024x512 .f32 0x00000000#32) (ix2 p q)
      = ∑ k : Fin 512, l (ix2 p k) * r (ix2 k q) := by
  refine (Ideal.matmul_constant_zero_apply dot_S1024x512_S512x512_S1024x512_1_0_0_1_n_n none l r (ix2 p q)).trans ?_
  exact Contract2.sum_contr_eq_sum_fin dot_S1024x512_S512x512_S1024x512_1_0_0_1_n_n rfl rfl rfl rfl
    (fun j q => by
      unfold DotDims.lhsIdx
      rw [dif_neg (show ¬(0 : Fin S1024x512.rank) ∈ dot_S1024x512_S512x512_S1024x512_1_0_0_1_n_n.lhsBatch by decide),
        dif_pos (show (0 : Fin S1024x512.rank) ∈ dot_S1024x512_S512x512_S1024x512_1_0_0_1_n_n.lhsNonContracting by decide)]
      rfl)
    (fun j q => by
      unfold DotDims.rhsIdx
      rw [dif_neg (show ¬(1 : Fin S512x512.rank) ∈ dot_S1024x512_S512x512_S1024x512_1_0_0_1_n_n.rhsBatch by decide),
        dif_pos (show (1 : Fin S512x512.rank) ∈ dot_S1024x512_S512x512_S1024x512_1_0_0_1_n_n.rhsNonContracting by decide)]
      rfl)
    l r (ix2 p q)

/-- The first stored value at entry (p, q): the row of the feature block against the column of the weight slice,
    plus the entry of the second slice. -/
theorem pay1_apply (a : Vec Ideal S1024x512 .f32) (w1 : Vec Ideal S512x512 .f32) (w2 : Vec Ideal S1024x512 .f32)
    (p : Fin 1024) (q : Fin 512) :
    k0_pay1 a w1 w2 (ix2 p q) = (∑ k : Fin 512, a (ix2 p k) * w1 (ix2 k q)) + w2 (ix2 p q) := by
  unfold k0_pay1
  simp only [shapeCast_self]
  exact congrArg (· + w2 (ix2 p q))
    (matmul_rows_apply (truncf (F := Ideal) .bf16 a bitsLt_bf16_f32) (truncf (F := Ideal) .bf16 w1 bitsLt_bf16_f32) p q)

/-- The second stored value at entry (p, q): the row of the feature block against the column of the weight slice,
    plus the bias at q. -/
theorem pay2_apply (x : Vec Ideal S1024x512 .f32) (w3 : Vec Ideal S512x512 .f32) (b : Vec Ideal S512 .f32)
    (p : Fin 1024) (q : Fin 512) :
    k0_pay2 x w3 b (ix2 p q) = (∑ k : Fin 512, x (ix2 p k) * w3 (ix2 k q)) + b (ix1 q) := by
  unfold k0_pay2
  simp only [shapeCast_self]
  refine congrArg₂ (· + ·)
    (matmul_rows_apply (truncf (F := Ideal) .bf16 x bitsLt_bf16_f32) (truncf (F := Ideal) .bf16 w3 bitsLt_bf16_f32) p q) ?_
  refine (broadcastTo_1b_ab_apply _ _ p q).trans ?_
  exact shapeCast_a_1a_apply _ _ 0 q

end Cert.KernelIdeal.Entries

end
-- ==== Proof.LibSumBlocks.lean ====
/-
  A sum over `Fin (A * B)` read block by block.

  An index `n < A · B` is uniquely `a · B + b` with `a < A` and `b < B` (division with remainder), so a sum over
  all `n` is the sum over the blocks `a` of the sums over the positions `b` inside a block.  Iterated three times
  this splits a sum over `C · I · K · R` indices into four nested sums; the case `2 · 64 · 16 · 512 = 1048576` is
  stated separately.  Only commutativity and associativity of the addition are used, so the statements hold in any
  additive commutative monoid (the extended reals included, infinite entries or not).
-/
import Mathlib.Algebra.BigOperators.Fin
import Mathlib.Logic.Equiv.Fin.Basic
import Mathlib.Data.Fintype.BigOperators

open scoped BigOperators

namespace Idealize.ShloMosaic.SumBlocks

/-- The index `a · B + b` of position `b` in block `a` is below `A · B`. -/
theorem idx_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right B a.isLt

/-- A sum over `Fin (A * B)` is the sum over the `A` blocks of the sums over the `B` positions of a block. -/
theorem sum_blocks {M : Type*} [AddCommMonoid M] {A B : ℕ} (f : Fin (A * B) → M) :
    ∑ n, f n = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  simp only [finProdFinEquiv_apply_val]
  rw [Nat.add_comm, Nat.mul_comm]

/-- The index of position `r` of block `k` of block `i` of block `c` is below `C · I · K · R`. -/
theorem idx4_lt {C I K R : ℕ} (c : Fin C) (i : Fin I) (k : Fin K) (r : Fin R) :
    ((c.val * I + i.val) * K + k.val) * R + r.val < C * I * K * R :=
  idx_lt (⟨(c.val * I + i.val) * K + k.val, idx_lt (⟨c.val * I + i.val, idx_lt c i⟩ : Fin (C * I)) k⟩ : Fin (C * I * K)) r

/-- A sum over `Fin (C * I * K * R)` as four nested sums. -/
theorem sum_blocks4 {M : Type*} [AddCommMonoid M] {C I K R : ℕ} (f : Fin (C * I * K * R) → M) :
    ∑ n, f n = ∑ c : Fin C, ∑ i : Fin I, ∑ k : Fin K, ∑ r : Fin R,
      f ⟨((c.val * I + i.val) * K + k.val) * R + r.val, idx4_lt c i k r⟩ := by
  rw [sum_blocks f,
    sum_blocks (fun x : Fin (C * I * K) => ∑ r : Fin R, f ⟨x.val * R + r.val, idx_lt x r⟩),
    sum_blocks (fun y : Fin (C * I) => ∑ k : Fin K, ∑ r : Fin R,
      f ⟨(y.val * K + k.val) * R + r.val, idx_lt (⟨y.val * K + k.val, idx_lt y k⟩ : Fin (C * I * K)) r⟩)]

/-- The index of row `r` of tile `k` of step `i` of half `c` is below `1048576 = 2 · 64 · 16 · 512`. -/
theorem idx_1048576_lt (c : Fin 2) (i : Fin 64) (k : Fin 16) (r : Fin 512) :
    ((c.val * 64 + i.val) * 16 + k.val) * 512 + r.val < 1048576 :=
  idx4_lt c i k r

/-- A sum over `Fin 1048576` as nested sums over `2`, `64`, `16` and `512` indices. -/
theorem sum_1048576 {M : Type*} [AddCommMonoid M] (f : Fin 1048576 → M) :
    ∑ n, f n = ∑ c : Fin 2, ∑ i : Fin 64, ∑ k : Fin 16, ∑ r : Fin 512,
      f ⟨((c.val * 64 + i.val) * 16 + k.val) * 512 + r.val, idx_1048576_lt c i k r⟩ :=
  sum_blocks4 (C := 2) (I := 64) (K := 16) (R := 512) f

end Idealize.ShloMosaic.SumBlocks
-- ==== Proof.LibEdgeSplit.lean ====
/-
  A sum over an edge list joined from two parts.

  Fix E + N positions, the first E holding one family of edges and the last N a second family in which position
  E + j belongs to node j (a loop at every node, listed in node order). A sum over all positions splits into the
  sum over the first part plus the sum over the second; and a sum restricted to the positions whose target is
  node i keeps, of the second part, exactly the one term at position E + i.
-/
import Mathlib.Algebra.BigOperators.Fin
import Mathlib.Algebra.BigOperators.Group.Finset.Basic

open scoped BigOperators

namespace Idealize.ShloMosaic.EdgeSplit

/-- A sum over E + N positions is the sum over the first E plus the sum over the last N. -/
theorem sum_fin_append {M : Type*} [AddCommMonoid M] {E N EN : ℕ} (h : EN = E + N) (f : Fin EN → M) :
    ∑ e : Fin EN, f e
      = (∑ e : Fin E, f ⟨e.val, by have := e.isLt; omega⟩) + ∑ j : Fin N, f ⟨E + j.val, by have := j.isLt; omega⟩ := by
  subst h
  rw [Fin.sum_univ_add]
  rfl

/-- The positions whose target is node i: those of the first part with that target, and position E + i of the
    second part (whose target is its own node). -/
theorem filter_sum_append {M : Type*} [AddCommMonoid M] {E N EN : ℕ} (h : EN = E + N)
    (t' : Fin EN → ℤ) (u' : Fin EN → M) (t : Fin E → ℤ) (u : Fin E → M) (d : Fin N → M)
    (ht : ∀ e : Fin E, t' ⟨e.val, by have := e.isLt; omega⟩ = t e)
    (hu : ∀ e : Fin E, u' ⟨e.val, by have := e.isLt; omega⟩ = u e)
    (htl : ∀ j : Fin N, t' ⟨E + j.val, by have := j.isLt; omega⟩ = (j.val : ℤ))
    (hul : ∀ j : Fin N, u' ⟨E + j.val, by have := j.isLt; omega⟩ = d j) (i : Fin N) :
    ∑ e ∈ Finset.univ.filter (fun e => t' e = (i.val : ℤ)), u' e
      = (∑ e ∈ Finset.univ.filter (fun e => t e = (i.val : ℤ)), u e) + d i := by
  rw [Finset.sum_filter, Finset.sum_filter, sum_fin_append h]
  congr 1
  · refine Finset.sum_congr rfl fun e _ => ?_
    rw [ht, hu]
  · rw [Finset.sum_eq_single i]
    · rw [htl, hul, if_pos rfl]
    · intro j _ hne
      rw [htl, if_neg]
      intro hh
      exact hne (Fin.ext (by exact_mod_cast hh))
    · intro hi
      exact absurd (Finset.mem_univ i) hi

end Idealize.ShloMosaic.EdgeSplit
-- ==== Proof.LibTripleSum.lean ====
/-
  Associativity of a triple product of finite families.

  For real families a(k), b(k, j), c(j) over any finite index types,
      ∑ k, a(k) · (∑ j, b(k, j) · c(j)) = ∑ j, (∑ k, a(k) · b(k, j)) · c(j):
  distribute both products over the inner sums, exchange the two sums, reassociate each term. This is the
  entrywise content of (A · B) · C = A · (B · C) for matrices. The coercion of the reals into the extended reals is
  additive and multiplicative, so it commutes with finite sums, and the same identity holds for extended reals that
  are coercions of reals — the form a proof about finite inputs meets. (With an infinite entry the two sides can
  differ, for instance through a product 0 · ∞ present on one side only.)
-/
import Mathlib.Data.EReal.Basic
import Mathlib.Algebra.BigOperators.Ring.Finset
import Mathlib.Algebra.BigOperators.Group.Finset.Sigma

noncomputable section

open scoped BigOperators

namespace Idealize.ShloMosaic.TripleSum

/-- The coercion of the reals into the extended reals commutes with finite sums. -/
theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product over the reals, for arbitrary finite index types. -/
theorem real_sum_assoc {κ ι : Type*} [Fintype κ] [Fintype ι] (a : κ → ℝ) (b : κ → ι → ℝ) (c : ι → ℝ) :
    ∑ k, a k * ∑ j, b k j * c j = ∑ j, (∑ k, a k * b k j) * c j := by
  simp only [Finset.mul_sum, Finset.sum_mul]
  rw [Finset.sum_comm]
  exact Finset.sum_congr rfl fun j _ => Finset.sum_congr rfl fun k _ => (mul_assoc _ _ _).symm

/-- Associativity of the triple product over extended reals that are coercions of reals. -/
theorem ereal_sum_assoc {κ ι : Type*} [Fintype κ] [Fintype ι] (a : κ → ℝ) (b : κ → ι → ℝ) (c : ι → ℝ) :
    ∑ k, (a k : EReal) * ∑ j, (b k j : EReal) * (c j : EReal)
      = ∑ j, (∑ k, (a k : EReal) * (b k j : EReal)) * (c j : EReal) := by
  simp only [← EReal.coe_mul, ← coe_finsetSum]
  exact congrArg _ (real_sum_assoc a b c)

end Idealize.ShloMosaic.TripleSum

end
-- ==== Proof.Spec.lean ====
/-
  The two programs' result, entry by entry, over the extended reals.

  Inputs: a feature matrix a (8192 × 512), an adjacency matrix A (8192 × 8192), a second feature matrix x
  (8192 × 512), a weight matrix w (9216 × 512) and a bias b (512). The weight's rows come in three bands: rows
  0 … 511 (w₁), rows 512 … 8703 (w₂, one row per node) and rows 8704 … 9215 (w₃).

  One program joins A·a, A and x side by side into an 8192 × 9216 matrix S and returns S·w + b. The other first
  forms C = a·w₁ + w₂ and D = x·w₃ + b, then returns D + A·C, the product A·C taken in eight column bands of A
  (1024 columns each) added one after the other. For real entries the two agree: splitting the sum over the 9216
  columns of S into its three bands gives (A·a)·w₁ + A·w₂ + x·w₃ + b, and (A·a)·w₁ = A·(a·w₁), so the first two terms
  are A·(a·w₁ + w₂) = A·C.
-/
import Idealize.ShloMosaic.Lib.ValueIdx
import proofs.«160982_j33655363732151_2_alg».proof.Proof.LibSumBlocks
import proofs.«160982_j33655363732151_2_alg».proof.Proof.LibEdgeSplit
import proofs.«160982_j33655363732151_2_alg».proof.Proof.LibTripleSum

noncomputable section

namespace Cert.Support

open Idealize.ShloMosaic Idealize.ShloMosaic.ValueIdx
open scoped BigOperators

/-- A matrix of extended reals, indexed as the printed shapes are. -/
abbrev Mat (a b : ℕ) : Type := (⟨2, ![a, b]⟩ : Shape).Idx → EReal
/-- A vector of extended reals. -/
abbrev Row (a : ℕ) : Type := (⟨1, ![a]⟩ : Shape).Idx → EReal

/-- Column kk of band s of the adjacency matrix. -/
def col (s : Fin 8) (kk : Fin 1024) : Fin 8192 := ⟨s.val * 1024 + kk.val, by have := s.isLt; have := kk.isLt; omega⟩
/-- Row k of the weight's first band. -/
def rowA (k : Fin 512) : Fin 9216 := ⟨k.val, by have := k.isLt; omega⟩
/-- Row r of the weight's second band. -/
def rowB (r : Fin 8192) : Fin 9216 := ⟨512 + r.val, by have := r.isLt; omega⟩
/-- Row k of the weight's third band. -/
def rowC (k : Fin 512) : Fin 9216 := ⟨8704 + k.val, by have := k.isLt; omega⟩

/-- C = a·w₁ + w₂ at (r, j). -/
def mixAt (a : Mat 8192 512) (w1 : Mat 512 512) (w2 : Mat 8192 512) (r : Fin 8192) (j : Fin 512) : EReal :=
  (∑ k : Fin 512, a (ix2 r k) * w1 (ix2 k j)) + w2 (ix2 r j)
/-- C as a matrix. -/
def mixG (a : Mat 8192 512) (w1 : Mat 512 512) (w2 : Mat 8192 512) : Mat 8192 512 := fun i => mixAt a w1 w2 (i 0) (i 1)
theorem mixG_apply (a : Mat 8192 512) (w1 : Mat 512 512) (w2 : Mat 8192 512) (r : Fin 8192) (j : Fin 512) :
    mixG a w1 w2 (ix2 r j) = mixAt a w1 w2 r j := rfl

/-- D = x·w₃ + b at (r, j). -/
def biasAt (x : Mat 8192 512) (w3 : Mat 512 512) (b : Row 512) (r : Fin 8192) (j : Fin 512) : EReal :=
  (∑ k : Fin 512, x (ix2 r k) * w3 (ix2 k j)) + b (ix1 j)
/-- D as a matrix. -/
def biasG (x : Mat 8192 512) (w3 : Mat 512 512) (b : Row 512) : Mat 8192 512 := fun i => biasAt x w3 b (i 0) (i 1)
theorem biasG_apply (x : Mat 8192 512) (w3 : Mat 512 512) (b : Row 512) (r : Fin 8192) (j : Fin 512) :
    biasG x w3 b (ix2 r j) = biasAt x w3 b r j := rfl

/-- D + A·C at (i, j), the product band by band. -/
def foldAt (adj : Mat 8192 8192) (C D : Mat 8192 512) (i : Fin 8192) (j : Fin 512) : EReal :=
  D (ix2 i j) + ∑ s : Fin 8, ∑ kk : Fin 1024, adj (ix2 i (col s kk)) * C (ix2 (col s kk) j)
/-- D + A·C as a matrix. -/
def foldG (adj : Mat 8192 8192) (C D : Mat 8192 512) : Mat 8192 512 := fun i => foldAt adj C D (i 0) (i 1)
theorem foldG_apply (adj : Mat 8192 8192) (C D : Mat 8192 512) (i : Fin 8192) (j : Fin 512) :
    foldG adj C D (ix2 i j) = foldAt adj C D i j := rfl

/-! ## Sums re-indexed -/

/-- A sum over the eight bands of 1024 columns is the sum over all 8192 columns. -/
theorem sum_col {M : Type*} [AddCommMonoid M] (f : Fin 8192 → M) :
    ∑ s : Fin 8, ∑ kk : Fin 1024, f (col s kk) = ∑ k : Fin 8192, f k :=
  (SumBlocks.sum_blocks (A := 8) (B := 1024) f).symm

/-- A sum over the weight's 9216 rows is the sum over its three bands. -/
theorem sum_rows {M : Type*} [AddCommMonoid M] (f : Fin 9216 → M) :
    ∑ q : Fin 9216, f q = (∑ a : Fin 512, f (rowA a)) + (∑ a : Fin 8192, f (rowB a)) + ∑ a : Fin 512, f (rowC a) := by
  rw [EdgeSplit.sum_fin_append (show 9216 = 512 + 8704 from rfl) f,
    EdgeSplit.sum_fin_append (show 8704 = 8192 + 512 from rfl) (fun j => f ⟨512 + j.val, by have := j.isLt; omega⟩),
    ← add_assoc]
  refine congrArg₂ (· + ·) (congrArg₂ (· + ·) rfl rfl) (Finset.sum_congr rfl fun a _ => congrArg f (Fin.ext ?_))
  show 512 + (8192 + a.val) = 8704 + a.val
  omega

/-! ## The identity over the reals -/

/-- For real families: (∑ₐ (∑ₖ Aₖ·aₖₐ)·uₐ) + ∑ₖ Aₖ·vₖ + ∑ₐ xₐ·zₐ + b = (∑ₐ xₐ·zₐ + b) + ∑ₖ Aₖ·((∑ₐ aₖₐ·uₐ) + vₖ). -/
theorem real_identity {κ ι : Type*} [Fintype κ] [Fintype ι] (A : κ → ℝ) (a : κ → ι → ℝ) (u : ι → ℝ) (v : κ → ℝ)
    (x z : ι → ℝ) (b : ℝ) :
    ((∑ q, x q * z q) + b) + ∑ k, A k * ((∑ q, a k q * u q) + v k)
      = ((∑ q, (∑ k, A k * a k q) * u q) + (∑ k, A k * v k) + ∑ q, x q * z q) + b := by
  rw [← TripleSum.real_sum_assoc A a u]
  simp only [mul_add, Finset.sum_add_distrib]
  ring

end Cert.Support

end
-- ==== Proof.RegionA.lean ====
/-
  The first kernel region: what its two output arrays hold when it ends.

  The region walks the 8192 rows in eight blocks of 1024. At block t it reads rows 1024·t … 1024·t + 1023 of the
  feature matrices a and x and of the second weight band w₂, the whole of the 512 × 512 bands w₁ and w₃ and the
  bias, and writes the same rows of C = a·w₁ + w₂ and D = x·w₃ + b. Every row block is written once, so the two
  arrays end at C and D of what the region found.
-/
import proofs.«160982_j33655363732151_2_alg».proof.Proof.Gen.KernelIdeal.Frame
import proofs.«160982_j33655363732151_2_alg».proof.Proof.EntriesA
import proofs.«160982_j33655363732151_2_alg».proof.Proof.Spec
import Idealize.ShloMosaic.Lib.Pipeline.Value

set_option maxRecDepth 16384

noncomputable section

namespace Cert.KernelIdeal.RegionA

open Cert.KernelIdeal Cert.KernelIdeal.Gen Cert.KernelIdeal.Entries Cert.Support
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block indices over the grid: the row-blocked windows sit at block t, the others at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The first stored value at block entry (p, q) is C at array entry (r, q), when the three loaded blocks read the
    arrays where the entry says. -/
theorem pay1_eq_mix (x0 : Vec Ideal S1024x512 .f32) (x1 : Vec Ideal S512x512 .f32) (x2 : Vec Ideal S1024x512 .f32)
    (A : Mat 8192 512) (W1 : Mat 512 512) (W2 : Mat 8192 512) (p : Fin 1024) (q : Fin 512) (r : Fin 8192)
    (h0 : ∀ k : Fin 512, x0 (ix2 p k) = A (ix2 r k))
    (h1 : ∀ k : Fin 512, x1 (ix2 k q) = W1 (ix2 k q))
    (h2 : x2 (ix2 p q) = W2 (ix2 r q)) : k0_pay1 x0 x1 x2 (ix2 p q) = mixG A W1 W2 (ix2 r q) := by
  rw [pay1_apply, h2, mixG_apply]
  exact congrArg (· + W2 (ix2 r q)) (Finset.sum_congr rfl fun k _ => by rw [h0 k, h1 k])

/-- The second stored value at block entry (p, q) is D at array entry (r, q). -/
theorem pay2_eq_bias (x0 : Vec Ideal S1024x512 .f32) (x1 : Vec Ideal S512x512 .f32) (x2 : Vec Ideal S512 .f32)
    (X : Mat 8192 512) (W3 : Mat 512 512) (B : Row 512) (p : Fin 1024) (q : Fin 512) (r : Fin 8192)
    (h0 : ∀ k : Fin 512, x0 (ix2 p k) = X (ix2 r k))
    (h1 : ∀ k : Fin 512, x1 (ix2 k q) = W3 (ix2 k q))
    (h2 : x2 (ix1 q) = B (ix1 q)) : k0_pay2 x0 x1 x2 (ix2 p q) = biasG X W3 B (ix2 r q) := by
  rw [pay2_apply, h2, biasG_apply]
  exact congrArg (· + B (ix1 q)) (Finset.sum_congr rfl fun k _ => by rw [h0 k, h1 k])

/-- What point t writes back into the first output is block t of C of the arrays the region found. -/
theorem flushed_mix (c : Dev nD) (t : Fin cfg0.N) :
    (dat0 V c).flushed 6 t
      = ((cfg0.win 6).blk t).view.read (Elt Ideal) (mixG (V c main_arg0) (V c main_v0) (V c main_v1)) := by
  show (cfg0.win 6).cut (grid0.coords t) ((dat0 V c).after 6 t) = _
  rw [after0_6]
  unfold out0_6
  rw [View.canon_unit_zero hz2]
  simp only [View.ld_unit_zero (S := S1024x512) hz2, View.ld_unit_zero (S := S512x512) hz2]
  obtain ⟨e00, e01, e10, e11, e20, e21, e30, e31, e40, e41, e50, e60, e61, e70, e71⟩ := idx_facts t
  have hN : t.val < 8 := lt_of_lt_of_eq t.isLt N_0
  funext y
  obtain ⟨p, q, rfl⟩ : ∃ (p : Fin 1024) (q : Fin 512), y = ix2 p q := ⟨y 0, y 1, eq_ix2 y⟩
  have hr : t.val * 1024 + p.val < 8192 := by have := p.isLt; omega
  have hemb : ((cfg0.win 6).blk t).view.emb (ix2 p q) = ix2 (⟨t.val * 1024 + p.val, hr⟩ : Fin 8192) q :=
    funext fun a => Fin.ext (by
      match a with
      | ⟨0, _⟩ => show win0_6.index t (0 : Fin 2) * 1024 + 1 * p.val = t.val * 1024 + p.val; omega
      | ⟨1, _⟩ => show win0_6.index t (1 : Fin 2) * 512 + 1 * q.val = q.val; omega)
  show k0_pay1 (iblk0 V c 0 t) (iblk0 V c 1 t) (iblk0 V c 2 t) (ix2 p q)
    = mixG (V c main_arg0) (V c main_v0) (V c main_v1) (((cfg0.win 6).blk t).view.emb (ix2 p q))
  rw [hemb]
  refine pay1_eq_mix (iblk0 V c 0 t) (iblk0 V c 1 t) (iblk0 V c 2 t) (V c main_arg0) (V c main_v0) (V c main_v1) p q
    ⟨t.val * 1024 + p.val, hr⟩ ?_ ?_ ?_
  · intro k
    show V c main_arg0 (((cfg0.win 0).blk t).view.emb (ix2 p k)) = _
    refine congrArg (V c main_arg0) (funext fun a => Fin.ext ?_)
    match a with
    | ⟨0, _⟩ => show win0_0.index t (0 : Fin 2) * 1024 + 1 * p.val = t.val * 1024 + p.val; omega
    | ⟨1, _⟩ => show win0_0.index t (1 : Fin 2) * 512 + 1 * k.val = k.val; omega
  · intro k
    show V c main_v0 (((cfg0.win 1).blk t).view.emb (ix2 k q)) = _
    refine congrArg (V c main_v0) (funext fun a => Fin.ext ?_)
    match a with
    | ⟨0, _⟩ => show win0_1.index t (0 : Fin 2) * 512 + 1 * k.val = k.val; omega
    | ⟨1, _⟩ => show win0_1.index t (1 : Fin 2) * 512 + 1 * q.val = q.val; omega
  · show V c main_v1 (((cfg0.win 2).blk t).view.emb (ix2 p q)) = _
    refine congrArg (V c main_v1) (funext fun a => Fin.ext ?_)
    match a with
    | ⟨0, _⟩ => show win0_2.index t (0 : Fin 2) * 1024 + 1 * p.val = t.val * 1024 + p.val; omega
    | ⟨1, _⟩ => show win0_2.index t (1 : Fin 2) * 512 + 1 * q.val = q.val; omega

/-- What point t writes back into the second output is block t of D of the arrays the region found. -/
theorem flushed_bias (c : Dev nD) (t : Fin cfg0.N) :
    (dat0 V c).flushed 7 t
      = ((cfg0.win 7).blk t).view.read (Elt Ideal) (biasG (V c main_arg2) (V c main_v2) (V c main_arg4)) := by
  show (cfg0.win 7).cut (grid0.coords t) ((dat0 V c).after 7 t) = _
  rw [after0_7]
  unfold out0_7
  rw [View.canon_unit_zero hz2]
  simp only [View.ld_unit_zero (S := S1024x512) hz2, View.ld_unit_zero (S := S512x512) hz2, View.ld_unit_zero (S := S512) hz1]
  obtain ⟨e00, e01, e10, e11, e20, e21, e30, e31, e40, e41, e50, e60, e61, e70, e71⟩ := idx_facts t
  have hN : t.val < 8 := lt_of_lt_of_eq t.isLt N_0
  funext y
  obtain ⟨p, q, rfl⟩ : ∃ (p : Fin 1024) (q : Fin 512), y = ix2 p q := ⟨y 0, y 1, eq_ix2 y⟩
  have hr : t.val * 1024 + p.val < 8192 := by have := p.isLt; omega
  have hemb : ((cfg0.win 7).blk t).view.emb (ix2 p q) = ix2 (⟨t.val * 1024 + p.val, hr⟩ : Fin 8192) q :=
    funext fun a => Fin.ext (by
      match a with
      | ⟨0, _⟩ => show win0_7.index t (0 : Fin 2) * 1024 + 1 * p.val = t.val * 1024 + p.val; omega
      | ⟨1, _⟩ => show win0_7.index t (1 : Fin 2) * 512 + 1 * q.val = q.val; omega)
  show k0_pay2 (iblk0 V c 3 t) (iblk0 V c 4 t) (iblk0 V c 5 t) (ix2 p q)
    = biasG (V c main_arg2) (V c main_v2) (V c main_arg4) (((cfg0.win 7).blk t).view.emb (ix2 p q))
  rw [hemb]
  refine pay2_eq_bias (iblk0 V c 3 t) (iblk0 V c 4 t) (iblk0 V c 5 t) (V c main_arg2) (V c main_v2) (V c main_arg4) p q
    ⟨t.val * 1024 + p.val, hr⟩ ?_ ?_ ?_
  · intro k
    show V c main_arg2 (((cfg0.win 3).blk t).view.emb (ix2 p k)) = _
    refine congrArg (V c main_arg2) (funext fun a => Fin.ext ?_)
    match a with
    | ⟨0, _⟩ => show win0_3.index t (0 : Fin 2) * 1024 + 1 * p.val = t.val * 1024 + p.val; omega
    | ⟨1, _⟩ => show win0_3.index t (1 : Fin 2) * 512 + 1 * k.val = k.val; omega
  · intro k
    show V c main_v2 (((cfg0.win 4).blk t).view.emb (ix2 k q)) = _
    refine congrArg (V c main_v2) (funext fun a => Fin.ext ?_)
    match a with
    | ⟨0, _⟩ => show win0_4.index t (0 : Fin 2) * 512 + 1 * k.val = k.val; omega
    | ⟨1, _⟩ => show win0_4.index t (1 : Fin 2) * 512 + 1 * q.val = q.val; omega
  · show V c main_arg4 (((cfg0.win 5).blk t).view.emb (ix1 q)) = _
    refine congrArg (V c main_arg4) (funext fun a => Fin.ext ?_)
    match a with
    | ⟨0, _⟩ => show win0_5.index t (0 : Fin 1) * 512 + 1 * q.val = q.val; omega

/-- An array index is in point t's block of an output iff its row is among the block's 1024. -/
theorem mem_blk6 (t : Fin cfg0.N) (i : S8192x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v3_0).slice (win0_6.rect t)).set ↔ _
  rw [View.set_slice_whole, Rect.mem_set_unit]
  exact Iff.rfl
theorem mem_blk7 (t : Fin cfg0.N) (i : S8192x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v3_1).slice (win0_7.rect t)).set ↔ _
  rw [View.set_slice_whole, Rect.mem_set_unit]
  exact Iff.rfl

/-- The first output array ends at C of what the region found: row r is written at point r / 1024. -/
theorem final_mix (c : Dev nD) :
    (dat0 V c).arrAt 6 cfg0.N = mixG (V c main_arg0) (V c main_v0) (V c main_v1) :=
  (dat0 V c).arrAt_eq_of_cover 6 _ (fun t _ => flushed_mix V c t) fun i => by
    have h0 : (i 0).val < 8192 := (i 0).isLt
    have h1 : (i 1).val < 512 := (i 1).isLt
    have hN : cfg0.N = 8 := N_0
    refine ⟨⟨(i 0).val / 1024, by omega⟩, flush0_6 _, ?_⟩
    rw [mem_blk6]
    obtain ⟨e00, e01, e10, e11, e20, e21, e30, e31, e40, e41, e50, e60, e61, e70, e71⟩ :=
      idx_facts ⟨(i 0).val / 1024, by omega⟩
    intro a
    match a with
    | ⟨0, _⟩ =>
      show win0_6.index ⟨(i 0).val / 1024, _⟩ (0 : Fin 2) * 1024 ≤ (i 0).val ∧ (i 0).val < win0_6.index ⟨(i 0).val / 1024, _⟩ (0 : Fin 2) * 1024 + 1024
      rw [e60]; dsimp only; omega
    | ⟨1, _⟩ =>
      show win0_6.index ⟨(i 0).val / 1024, _⟩ (1 : Fin 2) * 512 ≤ (i 1).val ∧ (i 1).val < win0_6.index ⟨(i 0).val / 1024, _⟩ (1 : Fin 2) * 512 + 512
      rw [e61]; omega

/-- The second output array ends at D of what the region found. -/
theorem final_bias (c : Dev nD) :
    (dat0 V c).arrAt 7 cfg0.N = biasG (V c main_arg2) (V c main_v2) (V c main_arg4) :=
  (dat0 V c).arrAt_eq_of_cover 7 _ (fun t _ => flushed_bias V c t) fun i => by
    have h0 : (i 0).val < 8192 := (i 0).isLt
    have h1 : (i 1).val < 512 := (i 1).isLt
    have hN : cfg0.N = 8 := N_0
    refine ⟨⟨(i 0).val / 1024, by omega⟩, flush0_7 _, ?_⟩
    rw [mem_blk7]
    obtain ⟨e00, e01, e10, e11, e20, e21, e30, e31, e40, e41, e50, e60, e61, e70, e71⟩ :=
      idx_facts ⟨(i 0).val / 1024, by omega⟩
    intro a
    match a with
    | ⟨0, _⟩ =>
      show win0_7.index ⟨(i 0).val / 1024, _⟩ (0 : Fin 2) * 1024 ≤ (i 0).val ∧ (i 0).val < win0_7.index ⟨(i 0).val / 1024, _⟩ (0 : Fin 2) * 1024 + 1024
      rw [e70]; dsimp only; omega
    | ⟨1, _⟩ =>
      show win0_7.index ⟨(i 0).val / 1024, _⟩ (1 : Fin 2) * 512 ≤ (i 1).val ∧ (i 1).val < win0_7.index ⟨(i 0).val / 1024, _⟩ (1 : Fin 2) * 512 + 512
      rw [e71]; omega

end Cert.KernelIdeal.RegionA

end
-- ==== Proof.EntriesB.lean ====
/-
  The second kernel's body, value by value.

  At a grid point (row block, column band) the body holds a 1024 × 1024 block of the adjacency matrix, the whole
  8192 × 512 matrix C of which it reads the band's 1024 rows, a 1024 × 512 block of D and the output's 1024 × 512
  block. At the first band of a row block it copies the block of D into the output block and then adds the product
  of the adjacency block with C's rows; at a later band it adds the product to what the output block held. Over the
  extended reals entry (p, q) of what it leaves is the old entry plus ∑ₖ A(p,k) · C(k,q) over the band's 1024 rows.
-/
import proofs.«160982_j33655363732151_2_alg».proof.Proof.Gen.KernelIdeal.Frame
import proofs.«160982_j33655363732151_2_alg».proof.Proof.LibContract
import Idealize.ShloMosaic.Lib.ValueIdx
import Idealize.ShloMosaic.Lib.Pipeline.Value
import Idealize.ShloMosaic.Lib.Tactic
import Idealize.ShloMosaic.PureOps.Ideal.Laws

noncomputable section

namespace Cert.KernelIdeal.Entries

open Cert.KernelIdeal Cert.KernelIdeal.Gen
open Idealize.ShloMosaic Idealize.ShloMosaic.TcCoe Idealize.SL.Sem Idealize.ShloMosaic.Tactic Idealize.ShloMosaic.ValueIdx
open scoped BigOperators

/-- A product of a 1024 × 1024 block with a 1024 × 512 matrix into the zero accumulator, at entry (p, q): the sum over
    the shared coordinate. -/
theorem matmul_band_apply (l : FVec Ideal S1024x1024 .bf16) (r : FVec Ideal S1024x512 .bf16) (p : Fin 1024) (q : Fin 512) :
    matmul dot_S1024x1024_S1024x512_S1024x512_1_0_0_1_n_n none l r (constant S1024x512 .f32 0x00000000#32) (ix2 p q)
      = ∑ k : Fin 1024, l (ix2 p k) * r (ix2 k q) := by
  refine (Ideal.matmul_constant_zero_apply dot_S1024x1024_S1024x512_S1024x512_1_0_0_1_n_n none l r (ix2 p q)).trans ?_
  exact Contract2.sum_contr_eq_sum_fin dot_S1024x1024_S1024x512_S1024x512_1_0_0_1_n_n rfl rfl rfl rfl
    (fun j q => by
      unfold DotDims.lhsIdx
      rw [dif_neg (show ¬(0 : Fin S1024x1024.rank) ∈ dot_S1024x1024_S1024x512_S1024x512_1_0_0_1_n_n.lhsBatch by decide),
        dif_pos (show (0 : Fin S1024x1024.rank) ∈ dot_S1024x1024_S1024x512_S1024x512_1_0_0_1_n_n.lhsNonContracting by decide)]
      rfl)
    (fun j q => by
      unfold DotDims.rhsIdx
      rw [dif_neg (show ¬(1 : Fin S1024x512.rank) ∈ dot_S1024x1024_S1024x512_S1024x512_1_0_0_1_n_n.rhsBatch by decide),
        dif_pos (show (1 : Fin S1024x512.rank) ∈ dot_S1024x1024_S1024x512_S1024x512_1_0_0_1_n_n.rhsNonContracting by decide)]
      rfl)
    l r (ix2 p q)

/-- The accumulating step at entry (p, q): the old entry plus the row of the adjacency block against the column of
    C's rows. -/
theorem step_apply (cb : Vec Ideal S1024x512 .bf16) (ab : Vec Ideal S1024x1024 .f32) (old : Vec Ideal S1024x512 .f32)
    (p : Fin 1024) (q : Fin 512) :
    k1_pay2 cb ab old (ix2 p q) = old (ix2 p q) + ∑ k : Fin 1024, ab (ix2 p k) * cb (ix2 k q) := by
  unfold k1_pay2
  simp only [shapeCast_self]
  exact congrArg (old (ix2 p q) + ·)
    (matmul_band_apply (truncf (F := Ideal) .bf16 ab bitsLt_bf16_f32) cb p q)

variable {F : FTy → Type} [FloatOps F]

theorem hz2 : (![0, 0] : Fin 2 → Nat) = fun _ => 0 := funext fun a => by fin_cases a <;> rfl

/-- A later band: the output block ends at the step applied to what it held. -/
theorem out_later (c : Dev nD) (i : grid1.Coords) (a2 : Memref sig .tc .vmem S1024x1024 .f32) (h2 : a2.IsWhole)
    (a3 : Memref sig .tc .vmem S8192x512 .bf16) (h3 : a3.IsWhole) (a4 : Memref sig .tc .vmem S1024x512 .f32) (h4 : a4.IsWhole)
    (a5 : Memref sig .tc .vmem S1024x512 .f32) (h5 : a5.IsWhole) (hc : ¬cond1_0 i)
    (x0 : Vec F S1024x1024 .f32) (x1 : Vec F S8192x512 .bf16) (x2 : Vec F S1024x512 .f32) (xo : Vec F S1024x512 .f32)
    (hin : ∀ a, k1_off1 i a + S1024x512.size a ≤ S8192x512.size a) :
    out1_B_3 c i a2 h2 a3 h3 a4 h4 a5 h5 hc x0 x1 x2 xo
      = k1_pay2 (View.ld x1 (Rect.unit (s := S8192x512) (k1_off1 i) S1024x512.size hin)) x0 xo := by
  unfold out1_B_3
  rw [View.read_writes_eq_canon _ _ _ (cover1_B_3 c i a2 h2 a3 h3 a4 h4 a5 h5 hc x0 x1 x2 xo)]
  unfold kernelRun1_B
  dsimp only
  rw [View.canon_unit_zero hz2]
  simp only [View.readAt_eq_ld, h2.read_unread, h3.read_unread, h5.read_unread,
    View.ld_unit_zero (S := S1024x1024) hz2, View.ld_unit_zero (S := S1024x512) hz2]

/-- The first band: the output block ends at the step applied to the block of D. -/
theorem out_first (c : Dev nD) (i : grid1.Coords) (a2 : Memref sig .tc .vmem S1024x1024 .f32) (h2 : a2.IsWhole)
    (a3 : Memref sig .tc .vmem S8192x512 .bf16) (h3 : a3.IsWhole) (a4 : Memref sig .tc .vmem S1024x512 .f32) (h4 : a4.IsWhole)
    (a5 : Memref sig .tc .vmem S1024x512 .f32) (h5 : a5.IsWhole) (hc : cond1_0 i)
    (x0 : Vec F S1024x1024 .f32) (x1 : Vec F S8192x512 .bf16) (x2 : Vec F S1024x512 .f32)
    (hin : ∀ a, k1_off1 i a + S1024x512.size a ≤ S8192x512.size a) :
    out1_A_3 c i a2 h2 a3 h3 a4 h4 a5 h5 hc x0 x1 x2
      = k1_pay2 (View.ld x1 (Rect.unit (s := S8192x512) (k1_off1 i) S1024x512.size hin)) x0 x2 := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1024x512) hz2, View.readCov_unit_zero (S := S1024x512) _ hz2]
  unfold k1_pay1
  simp only [View.readAt_eq_ld, h2.read_unread, h3.read_unread, h4.read_unread,
    View.ld_unit_zero (S := S1024x1024) hz2, View.ld_unit_zero (S := S1024x512) hz2, shapeCast_self]

end Cert.KernelIdeal.Entries

end
-- ==== Proof.RegionB.lean ====
/-
  The second kernel region: what its output array holds when it ends.

  The grid is 8 row blocks by 8 column bands, the band moving fastest: point n is row block n / 8, band n % 8. At
  a point the body reads the 1024 × 1024 block (row block, band) of the adjacency matrix A, rows band·1024 …
  band·1024 + 1023 of C, and the row block of D. The output's block stays in place along a row block's eight bands:
  at band 0 it becomes the block of D plus the band's product, at each later band the band's product is added, and
  after band 7 it is written back. So row r of the output ends at D(r, ·) + ∑ over the eight bands of
  ∑ₖ A(r, band·1024 + k) · C(band·1024 + k, ·).
-/
import proofs.«160982_j33655363732151_2_alg».proof.Proof.Gen.KernelIdeal.Frame
import proofs.«160982_j33655363732151_2_alg».proof.Proof.EntriesB
import proofs.«160982_j33655363732151_2_alg».proof.Proof.Spec
import Idealize.ShloMosaic.Lib.Pipeline.Value

set_option maxRecDepth 16384

noncomputable section

namespace Cert.KernelIdeal.RegionB

open Cert.KernelIdeal Cert.KernelIdeal.Gen Cert.KernelIdeal.Entries Cert.Support
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The block indices and the body's row offset into C over the grid: point n is row block n / 8, band n % 8. -/
theorem idx_facts : ∀ t : Fin cfg1.N,
    win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0
    ∧ k1_off1 (grid1.coords t) (0 : Fin 2) = t.val % 8 * 1024 ∧ k1_off1 (grid1.coords t) (1 : Fin 2) = 0 :=
  (by decide +kernel : ∀ t : Fin grid1.N, _)

/-- Row p of the row block of point n, in the arrays. -/
def rowOf (n : ℕ) (p : Fin 1024) : Fin 8192 := ⟨n / 8 % 8 * 1024 + p.val, by have := p.isLt; omega⟩
/-- Column k of the band of point n, in the adjacency matrix (row k of the band, in C). -/
def bandCol (n : ℕ) (k : Fin 1024) : Fin 8192 := ⟨n % 8 * 1024 + k.val, by have := k.isLt; omega⟩

/-- The product added at point n, at block entry (p, q). -/
def prodAt (A : Mat 8192 8192) (C : Mat 8192 512) (n : ℕ) (p : Fin 1024) (q : Fin 512) : EReal :=
  ∑ k : Fin 1024, A (ix2 (rowOf n p) (bandCol n k)) * C (ix2 (bandCol n k) q)

/-- The step as a function of the block: the old block plus the point's product, when the loaded blocks read the
    arrays at the point's rows and columns. -/
theorem step_eq (cb : Vec Ideal S1024x512 .bf16) (ab : Vec Ideal S1024x1024 .f32) (old : Vec Ideal S1024x512 .f32)
    (A : Mat 8192 8192) (C : Mat 8192 512) (n : ℕ)
    (hab : ∀ (p : Fin 1024) (k : Fin 1024), ab (ix2 p k) = A (ix2 (rowOf n p) (bandCol n k)))
    (hcb : ∀ (k : Fin 1024) (q : Fin 512), cb (ix2 k q) = C (ix2 (bandCol n k) q)) :
    k1_pay2 cb ab old = fun y => old y + prodAt A C n (y 0) (y 1) := by
  funext y
  obtain ⟨p, q, rfl⟩ : ∃ (p : Fin 1024) (q : Fin 512), y = ix2 p q := ⟨y 0, y 1, eq_ix2 y⟩
  rw [step_apply]
  show old (ix2 p q) + _ = old (ix2 p q) + ∑ k : Fin 1024, A (ix2 (rowOf n p) (bandCol n k)) * C (ix2 (bandCol n k) q)
  exact congrArg (old (ix2 p q) + ·) (Finset.sum_congr rfl fun k _ => by rw [hab p k, hcb k q])

/-- At any point the loaded adjacency block reads A at the point's rows and the band's columns. -/
theorem adj_block (c : Dev nD) (t : Fin cfg1.N) (p k : Fin 1024) :
    iblk1 V c 0 t (ix2 p k) = V c main_arg1 (ix2 (rowOf t.val p) (bandCol t.val k)) := by
  obtain ⟨e00, e01, e10, e11, e20, e21, e30, e31, eo0, eo1⟩ := idx_facts t
  have hN : t.val < 64 := lt_of_lt_of_eq t.isLt N_1
  show V c main_arg1 (((cfg1.win 0).blk t).view.emb (ix2 p k)) = _
  refine congrArg (V c main_arg1) (funext fun a => Fin.ext ?_)
  match a with
  | ⟨0, _⟩ => show win1_0.index t (0 : Fin 2) * 1024 + 1 * p.val = t.val / 8 % 8 * 1024 + p.val; omega
  | ⟨1, _⟩ => show win1_0.index t (1 : Fin 2) * 1024 + 1 * k.val = t.val % 8 * 1024 + k.val; omega

/-- At any point the rows of C the body loads are the band's. -/
theorem c_rows (c : Dev nD) (t : Fin cfg1.N) (hin : ∀ a, k1_off1 (grid1.coords t) a + S1024x512.size a ≤ S8192x512.size a)
    (k : Fin 1024) (q : Fin 512) :
    View.ld (iblk1 V c 1 t) (Rect.unit (s := S8192x512) (k1_off1 (grid1.coords t)) S1024x512.size hin) (ix2 k q)
      = V c main_v3_0 (ix2 (bandCol t.val k) q) := by
  obtain ⟨e00, e01, e10, e11, e20, e21, e30, e31, eo0, eo1⟩ := idx_facts t
  show V c main_v3_0 (((cfg1.win 1).blk t).view.emb
    ((Rect.unit (s := S8192x512) (k1_off1 (grid1.coords t)) S1024x512.size hin).emb (ix2 k q))) = _
  refine congrArg (V c main_v3_0) (funext fun a => Fin.ext ?_)
  match a with
  | ⟨0, _⟩ =>
    show win1_1.index t (0 : Fin 2) * 8192 + 1 * (k1_off1 (grid1.coords t) (0 : Fin 2) + 1 * k.val) = t.val % 8 * 1024 + k.val
    omega
  | ⟨1, _⟩ =>
    show win1_1.index t (1 : Fin 2) * 512 + 1 * (k1_off1 (grid1.coords t) (1 : Fin 2) + 1 * q.val) = q.val
    omega

/-- At any point the loaded block of D reads D at the point's rows. -/
theorem d_block (c : Dev nD) (t : Fin cfg1.N) (p : Fin 1024) (q : Fin 512) :
    iblk1 V c 2 t (ix2 p q) = V c main_v3_1 (ix2 (rowOf t.val p) q) := by
  obtain ⟨e00, e01, e10, e11, e20, e21, e30, e31, eo0, eo1⟩ := idx_facts t
  have hN : t.val < 64 := lt_of_lt_of_eq t.isLt N_1
  show V c main_v3_1 (((cfg1.win 2).blk t).view.emb (ix2 p q)) = _
  refine congrArg (V c main_v3_1) (funext fun a => Fin.ext ?_)
  match a with
  | ⟨0, _⟩ => show win1_2.index t (0 : Fin 2) * 1024 + 1 * p.val = t.val / 8 % 8 * 1024 + p.val; omega
  | ⟨1, _⟩ => show win1_2.index t (1 : Fin 2) * 512 + 1 * q.val = q.val; omega

/-- The body's slice of C stays inside C at every point. -/
theorem off_inb (t : Fin cfg1.N) : ∀ a, k1_off1 (grid1.coords t) a + S1024x512.size a ≤ S8192x512.size a := by
  obtain ⟨e00, e01, e10, e11, e20, e21, e30, e31, eo0, eo1⟩ := idx_facts t
  intro a
  match a with
  | ⟨0, _⟩ => show k1_off1 (grid1.coords t) (0 : Fin 2) + 1024 ≤ 8192; omega
  | ⟨1, _⟩ => show k1_off1 (grid1.coords t) (1 : Fin 2) + 512 ≤ 512; omega

/-- The block of D at the rows of point n. -/
def dAt (D : Mat 8192 512) (n : ℕ) : S1024x512.Idx → EReal := fun y => D (ix2 (rowOf n (y 0)) (y 1))
/-- The product of point n as a function of the block entry. -/
def prodBlk (A : Mat 8192 8192) (C : Mat 8192 512) (n : ℕ) : S1024x512.Idx → EReal := fun y => prodAt A C n (y 0) (y 1)

/-- At the first band of a row block the output block ends at the block of D plus the product. -/
theorem outs_first (c : Dev nD) (n : ℕ) (h : n < cfg1.N) (h0 : n % 8 = 0) :
    outsAt1 V c n h = fun y => dAt (V c main_v3_1) n y + prodBlk (V c main_arg1) (V c main_v3_0) n y := by
  rw [outsAt1_A V c ⟨n, h⟩ h0, out_first (hin := off_inb ⟨n, h⟩)]
  refine (step_eq
    (View.ld (iblk1 V c 1 ⟨n, h⟩) (Rect.unit (s := S8192x512) (k1_off1 (grid1.coords ⟨n, h⟩)) S1024x512.size (off_inb ⟨n, h⟩)))
    (iblk1 V c 0 ⟨n, h⟩) (iblk1 V c 2 ⟨n, h⟩) (V c main_arg1) (V c main_v3_0) n
    (adj_block V c ⟨n, h⟩) (c_rows V c ⟨n, h⟩ (off_inb ⟨n, h⟩))).trans ?_
  funext y
  obtain ⟨p, q, rfl⟩ : ∃ (p : Fin 1024) (q : Fin 512), y = ix2 p q := ⟨y 0, y 1, eq_ix2 y⟩
  exact congrArg (· + prodAt (V c main_arg1) (V c main_v3_0) n p q) (d_block V c ⟨n, h⟩ p q)

/-- At a later band the product is added to what the point before left. -/
theorem outs_later (c : Dev nD) (n : ℕ) (h : n + 1 < cfg1.N) (h0 : ¬(n + 1) % 8 = 0) :
    outsAt1 V c (n + 1) h
      = fun y => outsAt1 V c n (Nat.lt_of_succ_lt h) y + prodBlk (V c main_arg1) (V c main_v3_0) (n + 1) y := by
  rw [outsAt1_B V c ⟨n + 1, h⟩ h0, out_later (hin := off_inb ⟨n + 1, h⟩)]
  exact step_eq
    (View.ld (iblk1 V c 1 ⟨n + 1, h⟩) (Rect.unit (s := S8192x512) (k1_off1 (grid1.coords ⟨n + 1, h⟩)) S1024x512.size (off_inb ⟨n + 1, h⟩)))
    (iblk1 V c 0 ⟨n + 1, h⟩) (outsAt1 V c n (Nat.lt_of_succ_lt h)) (V c main_arg1) (V c main_v3_0) (n + 1)
    (adj_block V c ⟨n + 1, h⟩) (c_rows V c ⟨n + 1, h⟩ (off_inb ⟨n + 1, h⟩))

/-- So after band j of row block q the output block is the block of D plus the products of bands 0 … j. -/
theorem outs_closed (c : Dev nD) (t : ℕ) (ht : t < cfg1.N) (y : S1024x512.Idx) :
    outsAt1 V c t ht y = dAt (V c main_v3_1) (8 * (t / 8)) y
      + ∑ s ∈ Finset.range (t % 8 + 1), prodBlk (V c main_arg1) (V c main_v3_0) (8 * (t / 8) + s) y := by
  have h' : 8 * (t / 8) + t % 8 < cfg1.N := by rw [Nat.div_add_mod]; exact ht
  rw [Pipeline.eq_accAt_of_mod (outsAt1 V c) 8
    (fun n _ => fun y => dAt (V c main_v3_1) n y + prodBlk (V c main_arg1) (V c main_v3_0) n y)
    (fun n _ acc => fun y => acc y + prodBlk (V c main_arg1) (V c main_v3_0) n y)
    (fun n h h0 => outs_first V c n h h0) (fun n h h0 => outs_later V c n h h0) (by decide) t ht h']
  exact Pipeline.accAt_add_apply _ _ (dAt (V c main_v3_1) (8 * (t / 8))) (prodBlk (V c main_arg1) (V c main_v3_0))
    (8 * (t / 8)) 7 (fun _ _ => rfl) (fun _ _ _ _ _ _ => rfl) (t % 8) (by omega) h' y

/-- The rows of a row block are the same at each of its eight points. -/
theorem rowOf_run (t s : ℕ) (hs : s < 8) (p : Fin 1024) : rowOf (8 * (t / 8) + s) p = rowOf t p :=
  Fin.ext (by show (8 * (t / 8) + s) / 8 % 8 * 1024 + p.val = t / 8 % 8 * 1024 + p.val; omega)

/-- Band s of a row block is met at the block's point s. -/
theorem bandCol_run (t : ℕ) (s : Fin 8) (k : Fin 1024) : bandCol (8 * (t / 8) + s.val) k = col s k :=
  Fin.ext (by show (8 * (t / 8) + s.val) % 8 * 1024 + k.val = s.val * 1024 + k.val; have := s.isLt; omega)

/-- The product of point s of a row block, over the block's rows and band s. -/
theorem prodBlk_run (A : Mat 8192 8192) (C : Mat 8192 512) (t : ℕ) (s : Fin 8) (p : Fin 1024) (q : Fin 512) :
    prodBlk A C (8 * (t / 8) + s.val) (ix2 p q) = ∑ kk : Fin 1024, A (ix2 (rowOf t p) (col s kk)) * C (ix2 (col s kk) q) := by
  show ∑ k : Fin 1024, A (ix2 (rowOf (8 * (t / 8) + s.val) p) (bandCol (8 * (t / 8) + s.val) k))
    * C (ix2 (bandCol (8 * (t / 8) + s.val) k) q) = _
  exact Finset.sum_congr rfl fun k _ => by rw [rowOf_run t s.val s.isLt p, bandCol_run t s k]

/-- The block of D of a row block's first point, over the block's rows. -/
theorem dAt_run (D : Mat 8192 512) (t : ℕ) (p : Fin 1024) (q : Fin 512) :
    dAt D (8 * (t / 8)) (ix2 p q) = D (ix2 (rowOf t p) q) := by
  show D (ix2 (rowOf (8 * (t / 8)) p) q) = _
  rw [show rowOf (8 * (t / 8)) p = rowOf t p from rowOf_run t 0 (by omega) p]

/-- What a point writes back (after band 7 of its row block) is its block of D + A·C of the arrays the region found. -/
theorem flushed_fold (c : Dev nD) (t : Fin cfg1.N) (hf : (cfg1.win 3).flush t = true) :
    (dat1 V c).flushed 3 t
      = ((cfg1.win 3).blk t).view.read (Elt Ideal) (foldG (V c main_arg1) (V c main_v3_0) (V c main_v3_1)) := by
  have h7 : t.val % 8 = 7 := (flush1_3 t).mp hf
  have hN : t.val < 64 := lt_of_lt_of_eq t.isLt N_1
  obtain ⟨e00, e01, e10, e11, e20, e21, e30, e31, eo0, eo1⟩ := idx_facts t
  show (cfg1.win 3).cut (grid1.coords t) ((dat1 V c).after 3 t) = _
  rw [after1_3]
  funext y
  obtain ⟨p, q, rfl⟩ : ∃ (p : Fin 1024) (q : Fin 512), y = ix2 p q := ⟨y 0, y 1, eq_ix2 y⟩
  have hemb : ((cfg1.win 3).blk t).view.emb (ix2 p q) = ix2 (rowOf t.val p) q :=
    funext fun a => Fin.ext (by
      match a with
      | ⟨0, _⟩ => show win1_3.index t (0 : Fin 2) * 1024 + 1 * p.val = t.val / 8 % 8 * 1024 + p.val; omega
      | ⟨1, _⟩ => show win1_3.index t (1 : Fin 2) * 512 + 1 * q.val = q.val; omega)
  show outsAt1 V c t.val t.isLt (ix2 p q)
    = foldG (V c main_arg1) (V c main_v3_0) (V c main_v3_1) (((cfg1.win 3).blk t).view.emb (ix2 p q))
  rw [hemb, foldG_apply, outs_closed V c t.val t.isLt (ix2 p q), h7, Finset.sum_range]
  unfold foldAt
  exact congrArg₂ (· + ·) (dAt_run (V c main_v3_1) t.val p q)
    (Finset.sum_congr rfl fun s _ => prodBlk_run (V c main_arg1) (V c main_v3_0) t.val s p q)

/-- An array index is in point t's block of the output iff its row is among the block's 1024. -/
theorem mem_blk3 (t : Fin cfg1.N) (i : S8192x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v4).slice (win1_3.rect t)).set ↔ _
  rw [View.set_slice_whole, Rect.mem_set_unit]
  exact Iff.rfl

/-- The output array ends at D + A·C of what the region found: row r is written after band 7 of row block r / 1024. -/
theorem final_fold (c : Dev nD) :
    (dat1 V c).arrAt 3 cfg1.N = foldG (V c main_arg1) (V c main_v3_0) (V c main_v3_1) :=
  (dat1 V c).arrAt_eq_of_cover 3 _ (fun t hf => flushed_fold V c t hf) fun i => by
    have h0 : (i 0).val < 8192 := (i 0).isLt
    have h1 : (i 1).val < 512 := (i 1).isLt
    have hN : cfg1.N = 64 := N_1
    refine ⟨⟨8 * ((i 0).val / 1024) + 7, by omega⟩, (flush1_3 _).mpr (by dsimp only; omega), ?_⟩
    rw [mem_blk3]
    obtain ⟨e00, e01, e10, e11, e20, e21, e30, e31, eo0, eo1⟩ := idx_facts ⟨8 * ((i 0).val / 1024) + 7, by omega⟩
    intro a
    match a with
    | ⟨0, _⟩ =>
      show win1_3.index ⟨8 * ((i 0).val / 1024) + 7, _⟩ (0 : Fin 2) * 1024 ≤ (i 0).val ∧ (i 0).val < win1_3.index ⟨8 * ((i 0).val / 1024) + 7, _⟩ (0 : Fin 2) * 1024 + 1024
      rw [e30]; dsimp only; omega
    | ⟨1, _⟩ =>
      show win1_3.index ⟨8 * ((i 0).val / 1024) + 7, _⟩ (1 : Fin 2) * 512 ≤ (i 1).val ∧ (i 1).val < win1_3.index ⟨8 * ((i 0).val / 1024) + 7, _⟩ (1 : Fin 2) * 512 + 512
      rw [e31]; omega

end Cert.KernelIdeal.RegionB

end
-- ==== Proof.Boundary.lean ====
/-
  What the two regions find in their windows.

  Before the first region the host cuts the weight matrix into its three bands: rows 0 … 511, rows 512 … 8703 and
  rows 8704 … 9215. The first region finds the launched feature matrices, bias and those three bands; the second
  region finds the launched adjacency matrix and, in its second and third windows, the two arrays the first region
  wrote.
-/
import proofs.«160982_j33655363732151_2_alg».proof.Proof.Gen.KernelIdeal.Frame
import proofs.«160982_j33655363732151_2_alg».proof.Proof.Spec
import Idealize.ShloMosaic.Lib.StableHlo.Run
import Idealize.ShloMosaic.Lib.ValueLayout

set_option maxRecDepth 16384

noncomputable section

namespace Cert.KernelIdeal.Boundary

open Cert.KernelIdeal Cert.KernelIdeal.Gen Cert.Support
open Idealize.ShloMosaic Idealize.ShloMosaic.TcCoe Idealize.SL.Sem Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-- The first band, as the first region finds it. -/
theorem first_band (c : Dev nD) :
    V1 m ρ c main_v0 = extractStridedSlice S512x512 ![0, 0] (m ((c.tc : Thread nD τ).loc main_arg3)) slices_S9216x512_S512x512_0_0 := by
  show StableHlo.after hostOps0 (W0 m ρ c) (Proc.devRef .tc main_v0) = _
  after_results

/-- The second band. -/
theorem second_band (c : Dev nD) :
    V1 m ρ c main_v1 = extractStridedSlice S8192x512 ![512, 0] (m ((c.tc : Thread nD τ).loc main_arg3)) slices_S9216x512_S8192x512_512_0 := by
  show StableHlo.after hostOps0 (W0 m ρ c) (Proc.devRef .tc main_v1) = _
  after_results

/-- The third band. -/
theorem third_band (c : Dev nD) :
    V1 m ρ c main_v2 = extractStridedSlice S512x512 ![8704, 0] (m ((c.tc : Thread nD τ).loc main_arg3)) slices_S9216x512_S512x512_8704_0 := by
  show StableHlo.after hostOps0 (W0 m ρ c) (Proc.devRef .tc main_v2) = _
  after_results

/-- The first region finds the first feature matrix as launched. -/
theorem first_arg0 (c : Dev nD) : V1 m ρ c main_arg0 = m ((c.tc : Thread nD τ).loc main_arg0) := by
  show StableHlo.after hostOps0 (W0 m ρ c) (Proc.devRef .tc main_arg0) = _
  after_results
/-- The first region finds the second feature matrix as launched. -/
theorem first_arg2 (c : Dev nD) : V1 m ρ c main_arg2 = m ((c.tc : Thread nD τ).loc main_arg2) := by
  show StableHlo.after hostOps0 (W0 m ρ c) (Proc.devRef .tc main_arg2) = _
  after_results
/-- The first region finds the bias as launched. -/
theorem first_arg4 (c : Dev nD) : V1 m ρ c main_arg4 = m ((c.tc : Thread nD τ).loc main_arg4) := by
  show StableHlo.after hostOps0 (W0 m ρ c) (Proc.devRef .tc main_arg4) = _
  after_results

/-- The second region finds the adjacency matrix as launched. -/
theorem second_arg1 (c : Dev nD) : V2 m ρ c main_arg1 = m ((c.tc : Thread nD τ).loc main_arg1) := by
  refine (W2_of_ne m ρ c main_arg1 (by decide)).trans ?_
  show StableHlo.after hostOps0 (W0 m ρ c) (Proc.devRef .tc main_arg1) = _
  after_results

/-- The second region finds, in its second window, what the first region left in its first output. -/
theorem second_c (c : Dev nD) : V2 m ρ c main_v3_0 = (dat0 (V1 m ρ) c).arrAt 6 cfg0.N := W2_arr m ρ c 6
/-- The second region finds, in its third window, what the first region left in its second output. -/
theorem second_d (c : Dev nD) : V2 m ρ c main_v3_1 = (dat0 (V1 m ρ) c).arrAt 7 cfg0.N := W2_arr m ρ c 7

end Cert.KernelIdeal.Boundary

end
-- ==== Proof.KernelValue.lean ====
/-
  The idealized kernel's result as one function of the launched arrays.

  Chaining the boundaries: the second region's output is D + A·C of what it finds, which is the launched adjacency
  matrix and the first region's two outputs; those are C = a·w₁ + w₂ and D = x·w₃ + b of the launched feature
  matrices and bias and of the weight's three bands as the host cut them.
-/
import proofs.«160982_j33655363732151_2_alg».proof.Proof.KernelRun
import proofs.«160982_j33655363732151_2_alg».proof.Proof.RegionA
import proofs.«160982_j33655363732151_2_alg».proof.Proof.RegionB
import proofs.«160982_j33655363732151_2_alg».proof.Proof.Boundary

set_option maxRecDepth 16384

noncomputable section

namespace Cert.KernelIdeal.Result

open Cert.KernelIdeal Cert.KernelIdeal.Gen Cert.Support
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The weight's first band, as the host cuts it. -/
abbrev band1 (c : Dev nD) : Mat 512 512 :=
  extractStridedSlice S512x512 ![0, 0] (m ((c.tc : Thread nD τ).loc main_arg3)) slices_S9216x512_S512x512_0_0
/-- The weight's second band. -/
abbrev band2 (c : Dev nD) : Mat 8192 512 :=
  extractStridedSlice S8192x512 ![512, 0] (m ((c.tc : Thread nD τ).loc main_arg3)) slices_S9216x512_S8192x512_512_0
/-- The weight's third band. -/
abbrev band3 (c : Dev nD) : Mat 512 512 :=
  extractStridedSlice S512x512 ![8704, 0] (m ((c.tc : Thread nD τ).loc main_arg3)) slices_S9216x512_S512x512_8704_0

/-- The result: D + A·C, band by band, of the launched arrays. -/
def result (c : Dev nD) : Mat 8192 512 :=
  foldG (m ((c.tc : Thread nD τ).loc main_arg1))
    (mixG (m ((c.tc : Thread nD τ).loc main_arg0)) (band1 m c) (band2 m c))
    (biasG (m ((c.tc : Thread nD τ).loc main_arg2)) (band3 m c) (m ((c.tc : Thread nD τ).loc main_arg4)))

/-- What the second region leaves in its output array is the result. -/
theorem final (c : Dev nD) : (dat1 (V2 m ρ) c).arrAt 3 cfg1.N = result m c := by
  refine (RegionB.final_fold (V2 m ρ) c).trans ?_
  rw [Boundary.second_arg1 m ρ c, Boundary.second_c m ρ c, Boundary.second_d m ρ c,
    RegionA.final_mix (V1 m ρ) c, RegionA.final_bias (V1 m ρ) c,
    Boundary.first_band m ρ c, Boundary.second_band m ρ c, Boundary.third_band m ρ c,
    Boundary.first_arg0 m ρ c, Boundary.first_arg2 m ρ c, Boundary.first_arg4 m ρ c]
  rfl

/-- The run, read: the result buffer at the result, the arguments unchanged. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (final m ρ c), (h c).2⟩) (RunValue.run_result m ρ)

end Cert.KernelIdeal.Result

end
-- ==== Proof.LibJoinCols.lean ====
/-
  Matrices joined along their columns, read at an entry.

  When two or three matrices with the same number of rows are laid side by side, the entry (e, q) of the result is
  the entry of the piece whose column range holds q: for widths w1, w2, w3 the first piece at column q when
  q < w1, the second at q − w1 when w1 ≤ q < w1 + w2, the third at q − w1 − w2 beyond. The result's width is
  kept as a number W of its own, so that a printed shape whose width is written as one literal is met directly.
-/
import Idealize.ShloMosaic.Lib.ValueIdx
import Idealize.ShloMosaic.Lib.Pipeline.Value

noncomputable section

namespace Idealize.ShloMosaic.JoinCols

open Idealize.ShloMosaic Idealize.ShloMosaic.ValueIdx

variable {α : Type}

/-- Two matrices side by side, at a column of the first. -/
theorem pair_left {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w1) (q : Fin W) (hq : q.val = a.val) :
    concatenate (⟨2, ![n, W]⟩ : Shape) 1 [⟨(⟨2, ![n, w1]⟩ : Shape), A⟩, ⟨(⟨2, ![n, w2]⟩ : Shape), B⟩] h (ix2 e q) = A (ix2 e a) :=
  concatenate_pair_apply_left 1 A B h (ix2 e q) rfl (ix2 e a)
    (fun b => match b with | ⟨0, _⟩ => rfl | ⟨1, _⟩ => hq.symm)

/-- Two matrices side by side, at a column of the second. -/
theorem pair_right {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w2) (q : Fin W) (hq : q.val = w1 + a.val) :
    concatenate (⟨2, ![n, W]⟩ : Shape) 1 [⟨(⟨2, ![n, w1]⟩ : Shape), A⟩, ⟨(⟨2, ![n, w2]⟩ : Shape), B⟩] h (ix2 e q) = B (ix2 e a) :=
  concatenate_pair_apply_right 1 A B h (ix2 e q) rfl rfl (ix2 e a)
    (fun b hb => match b with | ⟨0, _⟩ => rfl | ⟨1, _⟩ => absurd rfl hb)
    (by show a.val + w1 = q.val; omega)

/-- Three matrices side by side, at a column of the first. -/
theorem triple_left {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w1) (q : Fin W) (hq : q.val = a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = A (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 0 (by simp) _ A rfl rfl 0 rfl (ix2 e a)
    (fun b hb => match b with | ⟨0, _⟩ => rfl | ⟨1, _⟩ => absurd rfl hb)
    (by show 0 + a.val = q.val; omega)

/-- Three matrices side by side, at a column of the second. -/
theorem triple_mid {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w2) (q : Fin W) (hq : q.val = w1 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = B (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 1 (by simp) _ B rfl rfl w1 (by simp) (ix2 e a)
    (fun b hb => match b with | ⟨0, _⟩ => rfl | ⟨1, _⟩ => absurd rfl hb)
    (by show w1 + a.val = q.val; omega)

/-- Three matrices side by side, at a column of the third. -/
theorem triple_right {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w3) (q : Fin W) (hq : q.val = w1 + w2 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = C (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 2 (by simp) _ C rfl rfl (w1 + w2) (by simp) (ix2 e a)
    (fun b hb => match b with | ⟨0, _⟩ => rfl | ⟨1, _⟩ => absurd rfl hb)
    (by show w1 + w2 + a.val = q.val; omega)

end Idealize.ShloMosaic.JoinCols

end
-- ==== Proof.RefEntries.lean ====
/-
  The reference's result, entry by entry.

  The reference joins A·a, A and x side by side into S (8192 × 9216) and returns S·w + b with the bias spread over
  the rows. Entry (i, j) of the result is ∑_q S(i,q) · w(q,j) + b(j); column q of S is column q of A·a in the first
  band, column q − 512 of A in the second and column q − 8704 of x in the third.
-/
import proofs.«160982_j33655363732151_2_alg».proof.Proof.Gen.ReferenceIdeal.Read
import proofs.«160982_j33655363732151_2_alg».proof.Proof.LibJoinCols
import proofs.«160982_j33655363732151_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Support
open scoped BigOperators

variable (x0 : (⟨S8192x512, .f32⟩ : BufTy).Contents (Elt Ideal)) (x1 : (⟨S8192x8192, .f32⟩ : BufTy).Contents (Elt Ideal))
  (x2 : (⟨S8192x512, .f32⟩ : BufTy).Contents (Elt Ideal)) (x3 : (⟨S9216x512, .f32⟩ : BufTy).Contents (Elt Ideal))
  (x4 : (⟨S512, .f32⟩ : BufTy).Contents (Elt Ideal))

/-- The result at (i, j): the row of the joined matrix against the column of the weight, plus the bias at j. -/
theorem result_apply (i : Fin 8192) (j : Fin 512) :
    val_main_v5 (F := Ideal) x0 x1 x2 x3 x4 (ix2 i j)
      = (∑ q : Fin 9216, val_main_v1 (F := Ideal) x0 x1 x2 (ix2 i q) * x3 (ix2 q j)) + x4 (ix1 j) := by
  have el : ∀ k : Fin 9216, lidx_main_v2 (ix2 i j) k = ix2 i k := fun k =>
    funext fun a => Fin.ext (by match a with | ⟨0, _⟩ => rfl | ⟨1, _⟩ => rfl)
  have er : ∀ k : Fin 9216, ridx_main_v2 (ix2 i j) k = ix2 k j := fun k =>
    funext fun a => Fin.ext (by match a with | ⟨0, _⟩ => rfl | ⟨1, _⟩ => rfl)
  have eb : idx_main_v3 (idx_main_v4 (ix2 i j)) = ix1 j :=
    funext fun a => Fin.ext (by match a with | ⟨0, _⟩ => rfl)
  rw [val_main_v5_apply, val_main_v2_apply, val_main_v4_apply, val_main_v3_apply, eb]
  simp only [el, er]
  rfl

/-- A column of the joined matrix in the first band: that column of A·a. -/
theorem joined_first (i : Fin 8192) (a : Fin 512) :
    val_main_v1 (F := Ideal) x0 x1 x2 (ix2 i (rowA a)) = ∑ k : Fin 8192, x1 (ix2 i k) * x0 (ix2 k a) := by
  have el : ∀ k : Fin 8192, lidx_main_v0 (ix2 i a) k = ix2 i k := fun k =>
    funext fun b => Fin.ext (by match b with | ⟨0, _⟩ => rfl | ⟨1, _⟩ => rfl)
  have er : ∀ k : Fin 8192, ridx_main_v0 (ix2 i a) k = ix2 k a := fun k =>
    funext fun b => Fin.ext (by match b with | ⟨0, _⟩ => rfl | ⟨1, _⟩ => rfl)
  unfold val_main_v1
  refine (JoinCols.triple_left (val_main_v0 (F := Ideal) x0 x1) x1 x2
    concatenates_S8192x512_S8192x8192_S8192x512_S8192x9216_d1 i a (rowA a) rfl).trans ?_
  rw [val_main_v0_apply]
  simp only [el, er]

/-- A column of the joined matrix in the second band: that column of A. -/
theorem joined_mid (i : Fin 8192) (a : Fin 8192) :
    val_main_v1 (F := Ideal) x0 x1 x2 (ix2 i (rowB a)) = x1 (ix2 i a) := by
  unfold val_main_v1
  exact JoinCols.triple_mid (val_main_v0 (F := Ideal) x0 x1) x1 x2
    concatenates_S8192x512_S8192x8192_S8192x512_S8192x9216_d1 i a (rowB a) rfl

/-- A column of the joined matrix in the third band: that column of x. -/
theorem joined_last (i : Fin 8192) (a : Fin 512) :
    val_main_v1 (F := Ideal) x0 x1 x2 (ix2 i (rowC a)) = x2 (ix2 i a) := by
  unfold val_main_v1
  exact JoinCols.triple_right (val_main_v0 (F := Ideal) x0 x1) x1 x2
    concatenates_S8192x512_S8192x8192_S8192x512_S8192x9216_d1 i a (rowC a) rfl

end Cert.ReferenceIdeal.RefValue

end
-- ==== Proof.Algebra.lean ====
/-
  The two results agree on real entries.

  With every entry of the five inputs a real number, D + A·C (the product taken band by band) equals S·w + b, where
  S joins A·a, A and x side by side: both are the coercion of one real number, by distributing A over a·w₁ + w₂,
  regrouping (A·a)·w₁ = A·(a·w₁) and reading the sum over the 9216 columns of S band by band.
-/
import proofs.«160982_j33655363732151_2_alg».proof.Proof.Spec

noncomputable section

namespace Cert.Support

open Idealize.ShloMosaic Idealize.ShloMosaic.ValueIdx
open scoped BigOperators

/-- Every entry is a real number. -/
def IsReal {ι : Type*} (f : ι → EReal) : Prop := ∀ i, ∃ r : ℝ, f i = (r : EReal)

/-- The banded form D + A·C at (i, j) is the joined form ∑_q S(i,q)·w(q,j) + b(j), for real inputs; w₁, w₂, w₃ are
    the weight's three bands and S the side-by-side join of A·a, A and x. -/
theorem fold_eq_reference (inp : Mat 8192 512) (adj : Mat 8192 8192) (x : Mat 8192 512) (w : Mat 9216 512) (b : Row 512)
    (w1 w3 : Mat 512 512) (w2 : Mat 8192 512) (S : Mat 8192 9216)
    (hw1 : ∀ k j, w1 (ix2 k j) = w (ix2 (rowA k) j)) (hw2 : ∀ r j, w2 (ix2 r j) = w (ix2 (rowB r) j))
    (hw3 : ∀ k j, w3 (ix2 k j) = w (ix2 (rowC k) j))
    (hS1 : ∀ i (a : Fin 512), S (ix2 i (rowA a)) = ∑ k : Fin 8192, adj (ix2 i k) * inp (ix2 k a))
    (hS2 : ∀ i (a : Fin 8192), S (ix2 i (rowB a)) = adj (ix2 i a))
    (hS3 : ∀ i (a : Fin 512), S (ix2 i (rowC a)) = x (ix2 i a))
    (hinp : IsReal inp) (hadj : IsReal adj) (hx : IsReal x) (hw : IsReal w) (hb : IsReal b)
    (i : Fin 8192) (j : Fin 512) :
    foldAt adj (mixG inp w1 w2) (biasG x w3 b) i j = (∑ q : Fin 9216, S (ix2 i q) * w (ix2 q j)) + b (ix1 j) := by
  choose inp' hinp using hinp
  choose adj' hadj using hadj
  choose x' hx using hx
  choose w' hw using hw
  choose b' hb using hb
  unfold foldAt
  rw [sum_col (fun k => adj (ix2 i k) * mixG inp w1 w2 (ix2 k j)), sum_rows (fun q => S (ix2 i q) * w (ix2 q j))]
  simp only [mixG_apply, biasG_apply, mixAt, biasAt, hw1, hw2, hw3, hS1, hS2, hS3, hinp, hadj, hx, hw, hb]
  simp only [← EReal.coe_mul, ← EReal.coe_add, ← TripleSum.coe_finsetSum]
  exact congrArg _ (real_identity (fun k => adj' (ix2 i k)) (fun k q => inp' (ix2 k q)) (fun q => w' (ix2 (rowA q) j))
    (fun k => w' (ix2 (rowB k) j)) (fun q => x' (ix2 i q)) (fun q => w' (ix2 (rowC q) j)) (b' (ix1 j)))

end Cert.Support

end
-- ==== Proof.LibFiniteEntry.lean ====
/-
  An extended real whose absolute value is below +∞ is a real number.

  A precondition "every input is finite" is stated entry by entry as the comparison |x| < +∞, with |x| = max x (−x) and
  +∞ given by its float pattern.  At an infinity the absolute value is +∞ and the comparison fails; so an entry that
  passes it is neither infinity.
-/
import Idealize.ShloMosaic.PureOps.Ideal

noncomputable section

namespace Idealize.ShloMosaic.FiniteEntry

/-- The f32 pattern 0x7F800000 is +∞. -/
theorem pinf_f32 : Ideal.ofBits .f32 0x7F800000#32 = ⊤ := by simp [Ideal.ofBits, Ideal.ieee]

/-- An extended real whose absolute value compares (ordered, less-than) below the pattern of +∞ is a real. -/
theorem real_of_abs_lt_inf (x : EReal) (h : Ideal.cmp .olt (max x (-x)) (Ideal.ofBits .f32 0x7F800000#32) = 1#1) :
    ∃ r : ℝ, x = (r : EReal) := by
  rw [pinf_f32] at h
  change BitVec.ofBool (decide (max x (-x) < (⊤ : EReal))) = 1#1 at h
  have hlt : max x (-x) < (⊤ : EReal) := by
    by_contra hn
    rw [show decide (max x (-x) < (⊤ : EReal)) = false from decide_eq_false hn] at h
    exact absurd h (by decide)
  induction x using EReal.rec with
  | bot => exact absurd hlt (by simp)
  | coe r => exact ⟨r, rfl⟩
  | top => exact absurd hlt (by simp)

end Idealize.ShloMosaic.FiniteEntry

end
-- ==== Proof.Finite.lean ====
/-
  Finite inputs are real.

  The precondition says of each of the five inputs that every entry x has |x| < +∞, the five statements joined by
  "and". Read back entry by entry, each entry is neither infinity, hence a real number.
-/
import proofs.«160982_j33655363732151_2_alg».proof.Pre_finite_inputs
import proofs.«160982_j33655363732151_2_alg».proof.Proof.Gen.Pre_finite_inputs
import proofs.«160982_j33655363732151_2_alg».proof.Proof.LibFiniteEntry
import proofs.«160982_j33655363732151_2_alg».proof.Proof.Algebra
import Idealize.ShloMosaic.Lib.ReduceAll
import Idealize.ShloMosaic.Lib.ValueIdx
import Idealize.ShloMosaic.PureOps.Ideal.Laws

noncomputable section

namespace Cert.Pre_finite_inputs.Decode

open Cert.Pre_finite_inputs Cert.Pre_finite_inputs.Gen Cert.Support
open Idealize.ShloMosaic Idealize.ShloMosaic.ValueIdx

/-- The result of a reduction over every axis has one index. -/
instance : Subsingleton S_.Idx := ⟨fun a b => funext fun d => d.elim0⟩

/-- Under the precondition every entry of every input is a real number. -/
theorem all_real (a0 : FVec Ideal S8192x512 .f32) (a1 : FVec Ideal S8192x8192 .f32) (a2 : FVec Ideal S8192x512 .f32)
    (a3 : FVec Ideal S9216x512 .f32) (a4 : FVec Ideal S512 .f32)
    (h : fn (F := Ideal) a0 a1 a2 a3 a4 = fun _ => 1#1) :
    IsReal a0 ∧ IsReal a1 ∧ IsReal a2 ∧ IsReal a3 ∧ IsReal a4 := by
  have h0 := congrFun h ix0
  dsimp only [fn, fn_part1] at h0
  obtain ⟨h0123, h4⟩ := IntOp.andi_eq_one.mp h0
  obtain ⟨h012, h3⟩ := IntOp.andi_eq_one.mp h0123
  obtain ⟨h01, h2⟩ := IntOp.andi_eq_one.mp h012
  obtain ⟨h0', h1⟩ := IntOp.andi_eq_one.mp h01
  exact ⟨fun i => FiniteEntry.real_of_abs_lt_inf (a0 i) (Host.reduce_andi_all _ _ _ _ ix0 h0' i),
    fun i => FiniteEntry.real_of_abs_lt_inf (a1 i) (Host.reduce_andi_all _ _ _ _ ix0 h1 i),
    fun i => FiniteEntry.real_of_abs_lt_inf (a2 i) (Host.reduce_andi_all _ _ _ _ ix0 h2 i),
    fun i => FiniteEntry.real_of_abs_lt_inf (a3 i) (Host.reduce_andi_all _ _ _ _ ix0 h3 i),
    fun i => FiniteEntry.real_of_abs_lt_inf (a4 i) (Host.reduce_andi_all _ _ _ _ ix0 h4 i)⟩

end Cert.Pre_finite_inputs.Decode

end
-- ==== Proof.lean ====
/-
  The claim: the kernel and its idealization run and leave their arguments unchanged, and the idealized kernel and
  the idealized reference, run from memories that agree on the five inputs, end with equal results.

  The reference computes S·w + b with S = [A·a | A | x]. The kernel computes C = a·w₁ + w₂ and D = x·w₃ + b in a
  first region and D + A·C, the product added band by band, in a second one. Under the precondition every input
  entry is a real number, and for real entries the two results are one number: the sum over the columns of S read
  band by band, (A·a)·w₁ regrouped as A·(a·w₁), and A distributed over a·w₁ + w₂.
-/
import proofs.«160982_j33655363732151_2_alg».proof.Defs
import proofs.«160982_j33655363732151_2_alg».proof.Proof.Gen.Kernel
import proofs.«160982_j33655363732151_2_alg».proof.Proof.Gen.Kernel.Skeleton
import proofs.«160982_j33655363732151_2_alg».proof.Proof.Gen.Kernel.Launch
import proofs.«160982_j33655363732151_2_alg».proof.Proof.Gen.Kernel.Points
import proofs.«160982_j33655363732151_2_alg».proof.Proof.Gen.Kernel.Frame
import proofs.«160982_j33655363732151_2_alg».proof.Proof.Gen.KernelIdeal
import proofs.«160982_j33655363732151_2_alg».proof.Proof.Gen.KernelIdeal.Skeleton
import proofs.«160982_j33655363732151_2_alg».proof.Proof.Gen.KernelIdeal.Launch
import proofs.«160982_j33655363732151_2_alg».proof.Proof.Gen.KernelIdeal.Points
import proofs.«160982_j33655363732151_2_alg».proof.Proof.Gen.KernelIdeal.Frame
import proofs.«160982_j33655363732151_2_alg».proof.Proof.Gen.ReferenceIdeal
import proofs.«160982_j33655363732151_2_alg».proof.Proof.Gen.Pre_finite_inputs
import proofs.«160982_j33655363732151_2_alg».proof.Proof.Gen.ReferenceIdeal.Run
import proofs.«160982_j33655363732151_2_alg».proof.Proof.Gen.ReferenceIdeal.Read
import proofs.«160982_j33655363732151_2_alg».proof.Proof.KernelValue
import proofs.«160982_j33655363732151_2_alg».proof.Proof.RefEntries
import proofs.«160982_j33655363732151_2_alg».proof.Proof.Algebra
import proofs.«160982_j33655363732151_2_alg».proof.Proof.Finite
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx Cert.Support

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The host's three cuts of the weight read at an entry: rows 0 …, 512 … and 8704 … of the weight. -/
theorem band1_apply (w : Mat 9216 512) (h : (⟨2, ![9216, 512]⟩ : Shape).Slices ![0, 0] ⟨2, ![512, 512]⟩) (k j : Fin 512) :
    extractStridedSlice ⟨2, ![512, 512]⟩ ![0, 0] w h (ix2 k j) = w (ix2 (rowA k) j) :=
  slice2_axis0_apply 0 w h k j (rowA k) (by show k.val = 0 + k.val; omega)
theorem band2_apply (w : Mat 9216 512) (h : (⟨2, ![9216, 512]⟩ : Shape).Slices ![512, 0] ⟨2, ![8192, 512]⟩) (r : Fin 8192) (j : Fin 512) :
    extractStridedSlice ⟨2, ![8192, 512]⟩ ![512, 0] w h (ix2 r j) = w (ix2 (rowB r) j) :=
  slice2_axis0_apply 512 w h r j (rowB r) rfl
theorem band3_apply (w : Mat 9216 512) (h : (⟨2, ![9216, 512]⟩ : Shape).Slices ![8704, 0] ⟨2, ![512, 512]⟩) (k j : Fin 512) :
    extractStridedSlice ⟨2, ![512, 512]⟩ ![8704, 0] w h (ix2 k j) = w (ix2 (rowC k) j) :=
  slice2_axis0_apply 8704 w h k j (rowC k) rfl

/-- The two idealized programs end with equal results: the kernel's array at D + A·C of the launched arrays, the
    reference's at S·w + b of arrays that agree with them, and the two are one function of real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4⟩ := Cert.Pre_finite_inputs.Decode.all_real _ _ _ _ _ (hpre c)
  rw [Cert.ReferenceIdeal.Read.val_main_v5_eq, (hagree c).1, (hagree c).2.1, (hagree c).2.2.1, (hagree c).2.2.2.1,
    (hagree c).2.2.2.2]
  funext i
  obtain ⟨r, j, rfl⟩ : ∃ (r : Fin 8192) (j : Fin 512), i = ix2 r j := ⟨i 0, i 1, eq_ix2 i⟩
  rw [Cert.ReferenceIdeal.RefValue.result_apply]
  exact (fold_eq_reference _ _ _ _ _ _ _ _ _
    (band1_apply _ _) (band2_apply _ _) (band3_apply _ _)
    (Cert.ReferenceIdeal.RefValue.joined_first _ _ _) (Cert.ReferenceIdeal.RefValue.joined_mid _ _ _)
    (Cert.ReferenceIdeal.RefValue.joined_last _ _ _) r0 r1 r2 r3 r4 r j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
